-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x4096 : Shape := ⟨3, ![64, 4, 4096]⟩
abbrev S64x384 : Shape := ⟨2, ![64, 384]⟩
abbrev S4x8x4 : Shape := ⟨3, ![4, 8, 4]⟩
abbrev S_ : Shape := ⟨0, ![]⟩

class Facts : Prop where
  bcast_S_S64x4x4096 : S_.BroadcastsInDim S64x4x4096 (![] : Fin 0 → Fin S64x4x4096.rank)
  reducesTo_S64x4x4096_S_d0_1_2 : S64x4x4096.ReducesTo [0, 1, 2] S_
  h_S_ : 0 < S_.numel
  bcast_S_S64x384 : S_.BroadcastsInDim S64x384 (![] : Fin 0 → Fin S64x384.rank)
  reducesTo_S64x384_S_d0_1 : S64x384.ReducesTo [0, 1] S_

variable [Facts]

def fn {F : FTy → Type} [FloatOps F] (main_arg0 : FVec F S64x4x4096 .f32) (main_arg1 : FVec F S64x384 .f32) (main_arg2 : IVec S4x8x4 32) (main_arg3 : IVec S4x8x4 32) (main_arg4 : IVec S4x8x4 32) : IVec S_ 1 :=
  let main_v0 : FVec F S64x4x4096 .f32 := Host.absf main_arg0
  let main_cst : FVec F S_ .f32 := constant S_ .f32 0x7F800000#32
  let main_v1 : FVec F S64x4x4096 .f32 := broadcastInDim S64x4x4096 ![] bcast_S_S64x4x4096 main_cst
  let main_v2 : IVec S64x4x4096 1 := cmpf .olt main_v0 main_v1
  let main_c : IVec S_ 1 := constantI S_ 1 1#1
  let main_v3 : IVec S_ 1 := (fun x v => Host.reduce IntOp.andi x v reducesTo_S64x4x4096_S_d0_1_2 h_S_) main_v2 main_c
  let main_v4 : FVec F S64x384 .f32 := Host.absf main_arg1
  let main_cst_0 : FVec F S_ .f32 := constant S_ .f32 0x7F800000#32
  let main_v5 : FVec F S64x384 .f32 := broadcastInDim S64x384 ![] bcast_S_S64x384 main_cst_0
  let main_v6 : IVec S64x384 1 := cmpf .olt main_v4 main_v5
  let main_c_1 : IVec S_ 1 := constantI S_ 1 1#1
  let main_v7 : IVec S_ 1 := (fun x v => Host.reduce IntOp.andi x v reducesTo_S64x384_S_d0_1 h_S_) main_v6 main_c_1
  let main_v8 : IVec S_ 1 := andi main_v3 main_v7
  main_v8
-- ==== Kernel.lean ====
abbrev S64x4x4096 : Shape := ⟨3, ![64, 4, 4096]⟩
abbrev S64x384 : Shape := ⟨2, ![64, 384]⟩
abbrev S4x8x4 : Shape := ⟨3, ![4, 8, 4]⟩
abbrev S_ : Shape := ⟨0, ![]⟩
abbrev S4x8x4x1 : Shape := ⟨4, ![4, 8, 4, 1]⟩
abbrev S64x4x8x4 : Shape := ⟨4, ![64, 4, 8, 4]⟩
abbrev S256x32 : Shape := ⟨2, ![256, 32]⟩
abbrev S256x4096 : Shape := ⟨2, ![256, 4096]⟩
abbrev S64x4096 : Shape := ⟨2, ![64, 4096]⟩
abbrev S64x32 : Shape := ⟨2, ![64, 32]⟩
abbrev S64x1 : Shape := ⟨2, ![64, 1]⟩

abbrev nBuf : Space → Nat
  | .hbm => 38
  | .vmem => 10
  | .smem => 0
  | _ => 0

abbrev bufTy : (tb : Table) → Fin (tcTables nBuf tb) → BufTy
  | .hbm, ⟨0, _⟩ => ⟨S64x4x4096, .f32⟩
  | .hbm, ⟨1, _⟩ => ⟨S64x384, .f32⟩
  | .hbm, ⟨2, _⟩ => ⟨S4x8x4, .i32⟩
  | .hbm, ⟨3, _⟩ => ⟨S4x8x4, .i32⟩
  | .hbm, ⟨4, _⟩ => ⟨S4x8x4, .i32⟩
  | .hbm, ⟨5, _⟩ => ⟨S_, .i32⟩
  | .hbm, ⟨6, _⟩ => ⟨S4x8x4, .i32⟩
  | .hbm, ⟨7, _⟩ => ⟨S4x8x4, .i1⟩
  | .hbm, ⟨8, _⟩ => ⟨S_, .i32⟩
  | .hbm, ⟨9, _⟩ => ⟨S4x8x4, .i32⟩
  | .hbm, ⟨10, _⟩ => ⟨S4x8x4, .i32⟩
  | .hbm, ⟨11, _⟩ => ⟨S4x8x4, .i32⟩
  | .hbm, ⟨12, _⟩ => ⟨S4x8x4x1, .i32⟩
  | .hbm, ⟨13, _⟩ => ⟨S64x4x8x4, .f32⟩
  | .hbm, ⟨14, _⟩ => ⟨S_, .i32⟩
  | .hbm, ⟨15, _⟩ => ⟨S4x8x4, .i32⟩
  | .hbm, ⟨16, _⟩ => ⟨S4x8x4, .i1⟩
  | .hbm, ⟨17, _⟩ => ⟨S_, .i32⟩
  | .hbm, ⟨18, _⟩ => ⟨S4x8x4, .i32⟩
  | .hbm, ⟨19, _⟩ => ⟨S4x8x4, .i32⟩
  | .hbm, ⟨20, _⟩ => ⟨S4x8x4, .i32⟩
  | .hbm, ⟨21, _⟩ => ⟨S4x8x4x1, .i32⟩
  | .hbm, ⟨22, _⟩ => ⟨S64x4x8x4, .f32⟩
  | .hbm, ⟨23, _⟩ => ⟨S_, .i32⟩
  | .hbm, ⟨24, _⟩ => ⟨S4x8x4, .i32⟩
  | .hbm, ⟨25, _⟩ => ⟨S4x8x4, .i1⟩
  | .hbm, ⟨26, _⟩ => ⟨S_, .i32⟩
  | .hbm, ⟨27, _⟩ => ⟨S4x8x4, .i32⟩
  | .hbm, ⟨28, _⟩ => ⟨S4x8x4, .i32⟩
  | .hbm, ⟨29, _⟩ => ⟨S4x8x4, .i32⟩
  | .hbm, ⟨30, _⟩ => ⟨S4x8x4x1, .i32⟩
  | .hbm, ⟨31, _⟩ => ⟨S64x4x8x4, .f32⟩
  | .hbm, ⟨32, _⟩ => ⟨S256x32, .f32⟩
  | .hbm, ⟨33, _⟩ => ⟨S256x32, .f32⟩
  | .hbm, ⟨34, _⟩ => ⟨S256x32, .f32⟩
  | .hbm, ⟨35, _⟩ => ⟨S256x4096, .f32⟩
  | .hbm, ⟨36, _⟩ => ⟨S256x4096, .f32⟩
  | .hbm, ⟨37, _⟩ => ⟨S64x4x4096, .f32⟩
  | .local _ .vmem, ⟨0, _⟩ => ⟨S64x4096, .f32⟩
  | .local _ .vmem, ⟨1, _⟩ => ⟨S64x4096, .f32⟩
  | .local _ .vmem, ⟨2, _⟩ => ⟨S64x32, .f32⟩
  | .local _ .vmem, ⟨3, _⟩ => ⟨S64x32, .f32⟩
  | .local _ .vmem, ⟨4, _⟩ => ⟨S64x32, .f32⟩
  | .local _ .vmem, ⟨5, _⟩ => ⟨S64x32, .f32⟩
  | .local _ .vmem, ⟨6, _⟩ => ⟨S64x32, .f32⟩
  | .local _ .vmem, ⟨7, _⟩ => ⟨S64x32, .f32⟩
  | .local _ .vmem, ⟨8, _⟩ => ⟨S64x4096, .f32⟩
  | .local _ .vmem, ⟨9, _⟩ => ⟨S64x4096, .f32⟩
  | _, _ => ⟨S64x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4x8x4 : S_.BroadcastsInDim S4x8x4 (![] : Fin 0 → Fin S4x8x4.rank)
  bcast_S4x8x4_S4x8x4x1_0_1_2 : S4x8x4.BroadcastsInDim S4x8x4x1 (![0, 1, 2] : Fin 3 → Fin S4x8x4x1.rank)
  shapeCasts_S64x4x8x4_S256x32 : S64x4x8x4.ShapeCasts S256x32
  shapeCasts_S64x4x4096_S256x4096 : S64x4x4096.ShapeCasts S256x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x32_S64x32_0_0 : ∀ a, (![0, 0] : Fin 2 → Nat) a + S64x32.size a ≤ S64x32.size a
  h_S64x32 : 0 < S64x32.numel
  shapeCasts_S64x32_S64x32 : S64x32.ShapeCasts S64x32
  slices_S64x32_o0_0_S64x1 : S64x32.Slices ![0, 0] S64x1
  broadcasts_S64x1_S64x4096 : S64x1.Broadcasts S64x4096
  slices_S64x32_o0_1_S64x1 : S64x32.Slices ![0, 1] S64x1
  slices_S64x32_o0_2_S64x1 : S64x32.Slices ![0, 2] S64x1
  slices_S64x32_o0_3_S64x1 : S64x32.Slices ![0, 3] S64x1
  slices_S64x32_o0_4_S64x1 : S64x32.Slices ![0, 4] S64x1
  slices_S64x32_o0_5_S64x1 : S64x32.Slices ![0, 5] S64x1
  slices_S64x32_o0_6_S64x1 : S64x32.Slices ![0, 6] S64x1
  slices_S64x32_o0_7_S64x1 : S64x32.Slices ![0, 7] S64x1
  slices_S64x32_o0_8_S64x1 : S64x32.Slices ![0, 8] S64x1
  slices_S64x32_o0_9_S64x1 : S64x32.Slices ![0, 9] S64x1
  slices_S64x32_o0_10_S64x1 : S64x32.Slices ![0, 10] S64x1
  slices_S64x32_o0_11_S64x1 : S64x32.Slices ![0, 11] S64x1
  slices_S64x32_o0_12_S64x1 : S64x32.Slices ![0, 12] S64x1
  slices_S64x32_o0_13_S64x1 : S64x32.Slices ![0, 13] S64x1
  slices_S64x32_o0_14_S64x1 : S64x32.Slices ![0, 14] S64x1
  slices_S64x32_o0_15_S64x1 : S64x32.Slices ![0, 15] S64x1
  slices_S64x32_o0_16_S64x1 : S64x32.Slices ![0, 16] S64x1
  slices_S64x32_o0_17_S64x1 : S64x32.Slices ![0, 17] S64x1
  slices_S64x32_o0_18_S64x1 : S64x32.Slices ![0, 18] S64x1
  slices_S64x32_o0_19_S64x1 : S64x32.Slices ![0, 19] S64x1
  slices_S64x32_o0_20_S64x1 : S64x32.Slices ![0, 20] S64x1
  slices_S64x32_o0_21_S64x1 : S64x32.Slices ![0, 21] S64x1
  slices_S64x32_o0_22_S64x1 : S64x32.Slices ![0, 22] S64x1
  slices_S64x32_o0_23_S64x1 : S64x32.Slices ![0, 23] S64x1
  slices_S64x32_o0_24_S64x1 : S64x32.Slices ![0, 24] S64x1
  slices_S64x32_o0_25_S64x1 : S64x32.Slices ![0, 25] S64x1
  slices_S64x32_o0_26_S64x1 : S64x32.Slices ![0, 26] S64x1
  slices_S64x32_o0_27_S64x1 : S64x32.Slices ![0, 27] S64x1
  slices_S64x32_o0_28_S64x1 : S64x32.Slices ![0, 28] S64x1
  slices_S64x32_o0_29_S64x1 : S64x32.Slices ![0, 29] S64x1
  slices_S64x32_o0_30_S64x1 : S64x32.Slices ![0, 30] S64x1
  slices_S64x32_o0_31_S64x1 : S64x32.Slices ![0, 31] S64x1
  shapeCasts_S256x4096_S64x4x4096 : S256x4096.ShapeCasts S64x4x4096
  gather_S64x384_S4x8x4x1_S64x4x8x4_0_1_n_n_1_3_641_wf : GatherDims.WF S64x384 S4x8x4x1 S64x4x8x4 [0] [1] [] [1] [] 3 ![64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S256x4096.size a
  hwx0_0 : ∀ i : grid0.Coords, EltTy.bits .f32 = 32 ∨ (Rect.block (s := S256x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S256x32.size a
  hwx0_1 : ∀ i : grid0.Coords, EltTy.bits .f32 = 32 ∨ (Rect.block (s := S256x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S256x32.size a
  hwx0_2 : ∀ i : grid0.Coords, EltTy.bits .f32 = 32 ∨ (Rect.block (s := S256x32) S64x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S256x32.size a
  hwx0_3 : ∀ i : grid0.Coords, EltTy.bits .f32 = 32 ∨ (Rect.block (s := S256x32) S64x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S256x4096.size a
  hwx0_4 : ∀ i : grid0.Coords, EltTy.bits .f32 = 32 ∨ (Rect.block (s := S256x4096) S64x4096.size (cc0_transform_4 i) (hinb0_4 i)).WholeWords (EltTy.packing .f32)

variable [Facts₀]

def gather_S64x384_S4x8x4x1_S64x4x8x4_0_1_n_n_1_3_641 : GatherDims S64x384 S4x8x4x1 S64x4x8x4 where
  offsetDims := [0]
  collapsedSliceDims := [1]
  operandBatchingDims := []
  startIndicesBatchingDims := []
  startIndexMap := [1]
  indexVectorDim := 3
  sliceSizes := ![64, 1]
  wf := gather_S64x384_S4x8x4x1_S64x4x8x4_0_1_n_n_1_3_641_wf

abbrev win0_0 : Pipeline.Window sig grid0 :=
  Pipeline.Window.ofSpec (Memref.whole main_v24) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4x4096 : Shape := ⟨3, ![64, 4, 4096]⟩
abbrev S64x384 : Shape := ⟨2, ![64, 384]⟩
abbrev S4x8x4 : Shape := ⟨3, ![4, 8, 4]⟩
abbrev S_ : Shape := ⟨0, ![]⟩
abbrev S4x8x4x1 : Shape := ⟨4, ![4, 8, 4, 1]⟩
abbrev S64x4x8x4 : Shape := ⟨4, ![64, 4, 8, 4]⟩
abbrev S64x4x1x1x4096 : Shape := ⟨5, ![64, 4, 1, 1, 4096]⟩
abbrev S64x4x8x4x1 : Shape := ⟨5, ![64, 4, 8, 4, 1]⟩
abbrev S64x4x8x4x4096 : Shape := ⟨5, ![64, 4, 8, 4, 4096]⟩

abbrev nBuf : Space → Nat
  | .hbm => 54
  | .vmem => 0
  | .smem => 0
  | _ => 0

abbrev bufTy : (tb : Table) → Fin (tcTables nBuf tb) → BufTy
  | .hbm, ⟨0, _⟩ => ⟨S64x4x4096, .f32⟩
  | .hbm, ⟨1, _⟩ => ⟨S64x384, .f32⟩
  | .hbm, ⟨2, _⟩ => ⟨S4x8x4, .i32⟩
  | .hbm, ⟨3, _⟩ => ⟨S4x8x4, .i32⟩
  | .hbm, ⟨4, _⟩ => ⟨S4x8x4, .i32⟩
  | .hbm, ⟨5, _⟩ => ⟨S_, .i32⟩
  | .hbm, ⟨6, _⟩ => ⟨S4x8x4, .i32⟩
  | .hbm, ⟨7, _⟩ => ⟨S4x8x4, .i1⟩
  | .hbm, ⟨8, _⟩ => ⟨S_, .i32⟩
  | .hbm, ⟨9, _⟩ => ⟨S4x8x4, .i32⟩
  | .hbm, ⟨10, _⟩ => ⟨S4x8x4, .i32⟩
  | .hbm, ⟨11, _⟩ => ⟨S4x8x4, .i32⟩
  | .hbm, ⟨12, _⟩ => ⟨S4x8x4x1, .i32⟩
  | .hbm, ⟨13, _⟩ => ⟨S64x4x8x4, .f32⟩
  | .hbm, ⟨14, _⟩ => ⟨S_, .i32⟩
  | .hbm, ⟨15, _⟩ => ⟨S4x8x4, .i32⟩
  | .hbm, ⟨16, _⟩ => ⟨S4x8x4, .i1⟩
  | .hbm, ⟨17, _⟩ => ⟨S_, .i32⟩
  | .hbm, ⟨18, _⟩ => ⟨S4x8x4, .i32⟩
  | .hbm, ⟨19, _⟩ => ⟨S4x8x4, .i32⟩
  | .hbm, ⟨20, _⟩ => ⟨S4x8x4, .i32⟩
  | .hbm, ⟨21, _⟩ => ⟨S4x8x4x1, .i32⟩
  | .hbm, ⟨22, _⟩ => ⟨S64x4x8x4, .f32⟩
  | .hbm, ⟨23, _⟩ => ⟨S_, .i32⟩
  | .hbm, ⟨24, _⟩ => ⟨S4x8x4, .i32⟩
  | .hbm, ⟨25, _⟩ => ⟨S4x8x4, .i1⟩
  | .hbm, ⟨26, _⟩ => ⟨S_, .i32⟩
  | .hbm, ⟨27, _⟩ => ⟨S4x8x4, .i32⟩
  | .hbm, ⟨28, _⟩ => ⟨S4x8x4, .i32⟩
  | .hbm, ⟨29, _⟩ => ⟨S4x8x4, .i32⟩
  | .hbm, ⟨30, _⟩ => ⟨S4x8x4x1, .i32⟩
  | .hbm, ⟨31, _⟩ => ⟨S64x4x8x4, .f32⟩
  | .hbm, ⟨32, _⟩ => ⟨S64x4x1x1x4096, .f32⟩
  | .hbm, ⟨33, _⟩ => ⟨S64x4x8x4x1, .f32⟩
  | .hbm, ⟨34, _⟩ => ⟨S64x4x8x4x4096, .f32⟩
  | .hbm, ⟨35, _⟩ => ⟨S64x4x8x4x4096, .f32⟩
  | .hbm, ⟨36, _⟩ => ⟨S64x4x8x4x4096, .f32⟩
  | .hbm, ⟨37, _⟩ => ⟨S64x4x8x4, .f32⟩
  | .hbm, ⟨38, _⟩ => ⟨S_, .f32⟩
  | .hbm, ⟨39, _⟩ => ⟨S64x4x8x4, .f32⟩
  | .hbm, ⟨40, _⟩ => ⟨S64x4x8x4, .f32⟩
  | .hbm, ⟨41, _⟩ => ⟨S64x4x8x4x1, .f32⟩
  | .hbm, ⟨42, _⟩ => ⟨S_, .f32⟩
  | .hbm, ⟨43, _⟩ => ⟨S64x4x8x4x4096, .f32⟩
  | .hbm, ⟨44, _⟩ => ⟨S64x4x8x4x4096, .f32⟩
  | .hbm, ⟨45, _⟩ => ⟨S64x4x8x4x4096, .f32⟩
  | .hbm, ⟨46, _⟩ => ⟨S64x4x8x4x1, .f32⟩
  | .hbm, ⟨47, _⟩ => ⟨S64x4x8x4x4096, .f32⟩
  | .hbm, ⟨48, _⟩ => ⟨S64x4x8x4x4096, .f32⟩
  | .hbm, ⟨49, _⟩ => ⟨S64x4x8x4x4096, .f32⟩
  | .hbm, ⟨50, _⟩ => ⟨S64x4x8x4x4096, .f32⟩
  | .hbm, ⟨51, _⟩ => ⟨S64x4x8x4x4096, .f32⟩
  | .hbm, ⟨52, _⟩ => ⟨S_, .f32⟩
  | .hbm, ⟨53, _⟩ => ⟨S64x4x4096, .f32⟩
  | _, _ => ⟨S64x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S_S4x8x4 : S_.BroadcastsInDim S4x8x4 (![] : Fin 0 → Fin S4x8x4.rank)
  bcast_S4x8x4_S4x8x4x1_0_1_2 : S4x8x4.BroadcastsInDim S4x8x4x1 (![0, 1, 2] : Fin 3 → Fin S4x8x4x1.rank)
  bcast_S64x4x4096_S64x4x1x1x4096_0_1_4 : S64x4x4096.BroadcastsInDim S64x4x1x1x4096 (![0, 1, 4] : Fin 3 → Fin S64x4x1x1x4096.rank)
  bcast_S64x4x8x4_S64x4x8x4x1_0_1_2_3 : S64x4x8x4.BroadcastsInDim S64x4x8x4x1 (![0, 1, 2, 3] : Fin 4 → Fin S64x4x8x4x1.rank)
  bcast_S64x4x1x1x4096_S64x4x8x4x4096_0_1_2_3_4 : S64x4x1x1x4096.BroadcastsInDim S64x4x8x4x4096 (![0, 1, 2, 3, 4] : Fin 5 → Fin S64x4x8x4x4096.rank)
  bcast_S64x4x8x4x1_S64x4x8x4x4096_0_1_2_3_4 : S64x4x8x4x1.BroadcastsInDim S64x4x8x4x4096 (![0, 1, 2, 3, 4] : Fin 5 → Fin S64x4x8x4x4096.rank)
  bcast_S_S64x4x8x4 : S_.BroadcastsInDim S64x4x8x4 (![] : Fin 0 → Fin S64x4x8x4.rank)
  bcast_S_S64x4x8x4x4096 : S_.BroadcastsInDim S64x4x8x4x4096 (![] : Fin 0 → Fin S64x4x8x4x4096.rank)
  reducesTo_S64x4x8x4x4096_S64x4x4096_d2_3 : S64x4x8x4x4096.ReducesTo [2, 3] S64x4x4096
  h_S_ : 0 < S_.numel
  gather_S64x384_S4x8x4x1_S64x4x8x4_0_1_n_n_1_3_641_wf : GatherDims.WF S64x384 S4x8x4x1 S64x4x8x4 [0] [1] [] [1] [] 3 ![64, 1]

variable [Facts₀]

def gather_S64x384_S4x8x4x1_S64x4x8x4_0_1_n_n_1_3_641 : GatherDims S64x384 S4x8x4x1 S64x4x8x4 where
  offsetDims := [0]
  collapsedSliceDims := [1]
  operandBatchingDims := []
  startIndicesBatchingDims := []
  startIndexMap := [1]
  indexVectorDim := 3
  sliceSizes := ![64, 1]
  wf := gather_S64x384_S4x8x4x1_S64x4x8x4_0_1_n_n_1_3_641_wf

class Facts : Prop extends Facts₀ where

variable [Facts]
-- ==== Proof.GaussLine.lean ====
/-
  A superposition of Gaussian lines on the extended reals: the arithmetic both programs share.

  One line contributes  a · exp(−½ · (x − μ)² / σ²)  at a wavelength bin x. One program folds the
  coefficient b = −½ · (1/σ²) first and forms  a · exp((b · (x − μ)) · (x − μ));  the other forms
  a · exp(((−½ · (x − μ)) · (x − μ)) · (1/σ²)).  Multiplication of extended reals is commutative and
  associative, so the two groupings are one number whatever the operands are (infinite ones included):
  no finiteness is used.  The 32 lines of a row are added one after the other starting from zero by
  one program and summed over the two line axes (8 lines × 4 components) by the other; addition of
  extended reals is commutative and associative too, so the two sums agree.
-/
import Idealize.ShloMosaic.PureOps.Ideal
import Idealize.ShloMosaic.PureOps.Ideal.Laws
import Mathlib.Algebra.BigOperators.Fin
import Mathlib.Logic.Equiv.Fin.Basic

noncomputable section

namespace Cert.GaussMix

open Idealize.ShloMosaic

/-- The float word of −0.5, as both programs spell it (never evaluated: the same word on both sides). -/
abbrev cHalf : EReal := Ideal.ofBits .f32 0xBF000000#32
/-- The float word of 1.0. -/
abbrev cOne : EReal := Ideal.ofBits .f32 0x3F800000#32

/-- The folded coefficient of a line of width σ: −½ · (1 / σ²). -/
def coef (σ : EReal) : EReal := cHalf * Ideal.div cOne (σ * σ)

/-- A line's contribution with the coefficient `b` folded first: a · exp((b · (x − μ)) · (x − μ)). -/
def lineK (x a μ b : EReal) : EReal := a * Ideal.exp (b * (x - μ) * (x - μ))

/-- A line's contribution with the width divided last: a · exp(((−½ · (x − μ)) · (x − μ)) · (1 / σ²)). -/
def lineR (x a μ σ : EReal) : EReal := a * Ideal.exp (cHalf * (x - μ) * (x - μ) * Ideal.div cOne (σ * σ))

/-- The two groupings of the exponent are one product: a factor moves across two others. -/
theorem lineK_coef (x a μ σ : EReal) : lineK x a μ (coef σ) = lineR x a μ σ := by
  unfold lineK lineR coef
  rw [mul_right_comm cHalf, mul_right_comm (cHalf * (x - μ))]

/-- Thirty-two terms added one after the other from zero are their sum over the 32 positions. -/
theorem sum32 (T : (n : ℕ) → n < 32 → EReal) :
    0 + T 0 (by decide) + T 1 (by decide) + T 2 (by decide) + T 3 (by decide) + T 4 (by decide) + T 5 (by decide) + T 6 (by decide) + T 7 (by decide) + T 8 (by decide) + T 9 (by decide) + T 10 (by decide) + T 11 (by decide) + T 12 (by decide) + T 13 (by decide) + T 14 (by decide) + T 15 (by decide) + T 16 (by decide) + T 17 (by decide) + T 18 (by decide) + T 19 (by decide) + T 20 (by decide) + T 21 (by decide) + T 22 (by decide) + T 23 (by decide) + T 24 (by decide) + T 25 (by decide) + T 26 (by decide) + T 27 (by decide) + T 28 (by decide) + T 29 (by decide) + T 30 (by decide) + T 31 (by decide)
      = ∑ j : Fin 32, T j.val j.isLt := by
  simp only [Fin.sum_univ_castSucc, Fin.sum_univ_zero]
  rfl

/-- A sum over 32 positions is the double sum over 8 lines of 4 components, position 4·l + k being
    component k of line l. -/
theorem sum_lines (f : Fin 32 → EReal) :
    ∑ j : Fin 32, f j = ∑ p : Fin 8 × Fin 4, f (finProdFinEquiv p) :=
  (Equiv.sum_comp (finProdFinEquiv (m := 8) (n := 4)) f).symm

theorem finProd_val (p : Fin 8 × Fin 4) : (finProdFinEquiv p : Fin 32).val = p.2.val + 4 * p.1.val := rfl

end Cert.GaussMix

end
-- ==== Proof.KernelRow.lean ====
/-
  One row of the kernel body, read at an entry.

  The body holds a [64, 4096] block of spectra x and three [64, 32] blocks: amplitudes a, centres μ and
  widths σ, one column per line.  It folds the widths once into the coefficients b = −½ · (1/σ²), and
  then, for the 32 columns n = 0 … 31 in turn, adds  a[p, n] · exp((b[p, n] · (x[p, q] − μ[p, n])) · (x[p, q] − μ[p, n]))
  to an accumulator that starts at zero.  Column n of a [64, 32] block broadcast along the 4096 bins
  reads, at entry (p, q), the block's entry (p, n).  So entry (p, q) of what the body stores is the sum
  over the 32 lines of row p of their contributions at bin q (`out_read`).
-/
import proofs.«129935_j28733331210408_2_alg».proof.Proof.Gen.KernelIdeal.Frame
import proofs.«129935_j28733331210408_2_alg».proof.Proof.GaussLine
import Idealize.ShloMosaic.Lib.Pipeline.Value
import Idealize.ShloMosaic.Lib.ValueIdx

noncomputable section

namespace Cert.KernelIdeal.Row

open Cert.KernelIdeal Cert.KernelIdeal.Gen Idealize.ShloMosaic Idealize.ShloMosaic.ValueIdx Cert.GaussMix

/-- A column offset at which a one-column slice of a [64, 32] block exists is below 32. -/
theorem slices_lt {n : ℕ} (hs : S64x32.Slices ![0, n] S64x1) : n < 32 := by
  obtain ⟨h, ha⟩ := hs
  have := ha (1 : Fin 2)
  change n + 1 ≤ 32 at this
  omega

/-- The exponential of a vector, entry by entry. -/
theorem exp_apply {s : Shape} (v : FVec Ideal s .f32) (i : s.Idx) : exp v i = Ideal.exp (v i) := rfl

/-- Column `n` of a [64, 32] block, broadcast along the 4096 bins, read at (p, q): the block's entry (p, n). -/
theorem col_read (v : FVec Ideal S64x32 .f32) (n : ℕ) (hs : S64x32.Slices ![0, n] S64x1)
    (hb : S64x1.Broadcasts S64x4096) (p : Fin 64) (q : Fin 4096) :
    broadcastTo S64x4096 (extractStridedSlice S64x1 ![0, n] v hs) hb (ix2 p q) = v (ix2 p ⟨n, slices_lt hs⟩) := by
  refine (broadcastTo_apply _ hb (ix2 p q) (ix2 p (0 : Fin 1)) ?_).trans ?_
  · intro a
    match a with
    | ⟨0, _⟩ => rfl
    | ⟨1, _⟩ => rfl
  · refine extractStridedSlice_apply _ v hs _ (ix2 p ⟨n, slices_lt hs⟩) ?_
    intro a
    match a with
    | ⟨0, _⟩ => show p.val = 0 + p.val; omega
    | ⟨1, _⟩ => show n = n + 0; omega

/-- The bell of line `n` of row `p` at bin `q`: exp((b · (x − μ)) · (x − μ)), from the spectra `v1`, the centres
    `v5` and the folded coefficients `v12`. -/
def bell (v1 : FVec Ideal S64x4096 .f32) (v5 v12 : FVec Ideal S64x32 .f32) (p : Fin 64) (q : Fin 4096)
    (n : ℕ) (h : n < 32) : EReal :=
  Ideal.exp (v12 (ix2 p ⟨n, h⟩) * (v1 (ix2 p q) - v5 (ix2 p ⟨n, h⟩)) * (v1 (ix2 p q) - v5 (ix2 p ⟨n, h⟩)))

/-- The contribution of line `n` of row `p` at bin `q`: its amplitude (from `v3`) times its bell. -/
def term (v1 : FVec Ideal S64x4096 .f32) (v3 v5 v12 : FVec Ideal S64x32 .f32) (p : Fin 64) (q : Fin 4096)
    (n : ℕ) (h : n < 32) : EReal :=
  lineK (v1 (ix2 p q)) (v3 (ix2 p ⟨n, h⟩)) (v5 (ix2 p ⟨n, h⟩)) (v12 (ix2 p ⟨n, h⟩))

theorem term_eq (v1 : FVec Ideal S64x4096 .f32) (v3 v5 v12 : FVec Ideal S64x32 .f32) (p : Fin 64) (q : Fin 4096)
    (n : ℕ) (h : n < 32) : v3 (ix2 p ⟨n, h⟩) * bell v1 v5 v12 p q n h = term v1 v3 v5 v12 p q n h := rfl

/-- One pass of the unrolled loop, as the body spells it, read at (p, q). -/
theorem term_read (v1 : FVec Ideal S64x4096 .f32) (v3 v5 v12 : FVec Ideal S64x32 .f32) (n : ℕ)
    (hs : S64x32.Slices ![0, n] S64x1) (hb : S64x1.Broadcasts S64x4096) (p : Fin 64) (q : Fin 4096) :
    mulf (broadcastTo S64x4096 (extractStridedSlice S64x1 ![0, n] v3 hs) hb)
      (exp (mulf (mulf (broadcastTo S64x4096 (extractStridedSlice S64x1 ![0, n] v12 hs) hb)
          (subf v1 (broadcastTo S64x4096 (extractStridedSlice S64x1 ![0, n] v5 hs) hb)))
        (subf v1 (broadcastTo S64x4096 (extractStridedSlice S64x1 ![0, n] v5 hs) hb)))) (ix2 p q)
      = term v1 v3 v5 v12 p q n (slices_lt hs) := by
  simp only [mulf_apply, exp_apply, subf_apply, col_read]
  rfl

/-! ## The body's pieces, one by one -/

/-- The three same-shape casts of the loaded blocks change nothing. -/
theorem pay1_eq (v0 : Vec Ideal S64x4096 .f32) : k0_pay1 v0 = v0 := shapeCast_self _ _
theorem pay2_eq (v2 : Vec Ideal S64x32 .f32) : k0_pay2 v2 = v2 := shapeCast_self _ _
theorem pay3_eq (v4 : Vec Ideal S64x32 .f32) : k0_pay3 v4 = v4 := shapeCast_self _ _

/-- The widths folded into coefficients, entry by entry. -/
theorem pay4_read (v6 : Vec Ideal S64x32 .f32) (j : S64x32.Idx) : k0_pay4 v6 j = coef (v6 j) := by
  unfold k0_pay4
  rw [shapeCast_self]
  rfl

/-- The accumulator's start and the first two lines. -/
theorem pay5_read (v0 : Vec Ideal S64x4096 .f32) (v2 v4 v6 : Vec Ideal S64x32 .f32) (p : Fin 64) (q : Fin 4096) :
    k0_pay5 v0 v2 v4 v6 (ix2 p q)
      = Ideal.ofBits .f32 0x00000000#32 + term (k0_pay1 v0) (k0_pay2 v2) (k0_pay3 v4) (k0_pay4 v6) p q 0 (by decide)
        + term (k0_pay1 v0) (k0_pay2 v2) (k0_pay3 v4) (k0_pay4 v6) p q 1 (by decide) := by
  unfold k0_pay5
  simp only [addf_apply, term_read]
  rfl

/-- The bell of line 2, and its amplitude column. -/
theorem pay6_read (v0 : Vec Ideal S64x4096 .f32) (v4 v6 : Vec Ideal S64x32 .f32) (p : Fin 64) (q : Fin 4096) :
    k0_pay6 v0 v4 v6 (ix2 p q) = bell (k0_pay1 v0) (k0_pay3 v4) (k0_pay4 v6) p q 2 (by decide) := by
  unfold k0_pay6
  simp only [mulf_apply, exp_apply, subf_apply, col_read]
  rfl
theorem pay7_read (v2 : Vec Ideal S64x32 .f32) (p : Fin 64) (q : Fin 4096) :
    k0_pay7 v2 (ix2 p q) = k0_pay2 v2 (ix2 p ⟨2, by decide⟩) := by
  unfold k0_pay7
  simp only [col_read]

/-- The running sum `a`, the line whose bell `e` and amplitude column `b` were formed before, and lines 3–6. -/
theorem pay8_read (v1 : FVec Ideal S64x4096 .f32) (v3 v5 v12 : FVec Ideal S64x32 .f32) (a e b : FVec Ideal S64x4096 .f32)
    (p : Fin 64) (q : Fin 4096) :
    k0_pay8 v1 v3 v5 v12 a e b (ix2 p q)
      = a (ix2 p q) + b (ix2 p q) * e (ix2 p q) + term v1 v3 v5 v12 p q 3 (by decide)
        + term v1 v3 v5 v12 p q 4 (by decide)
        + term v1 v3 v5 v12 p q 5 (by decide)
        + term v1 v3 v5 v12 p q 6 (by decide) := by
  unfold k0_pay8
  simp only [addf_apply, term_read]
  simp only [mulf_apply]

/-- The running sum `a`, the line whose bell `e` and amplitude column `b` were formed before, and lines 8–11. -/
theorem pay11_read (v1 : FVec Ideal S64x4096 .f32) (v3 v5 v12 : FVec Ideal S64x32 .f32) (a e b : FVec Ideal S64x4096 .f32)
    (p : Fin 64) (q : Fin 4096) :
    k0_pay11 v1 v3 v5 v12 a e b (ix2 p q)
      = a (ix2 p q) + b (ix2 p q) * e (ix2 p q) + term v1 v3 v5 v12 p q 8 (by decide)
        + term v1 v3 v5 v12 p q 9 (by decide)
        + term v1 v3 v5 v12 p q 10 (by decide)
        + term v1 v3 v5 v12 p q 11 (by decide) := by
  unfold k0_pay11
  simp only [addf_apply, term_read]
  simp only [mulf_apply]

/-- The running sum `a`, the line whose bell `e` and amplitude column `b` were formed before, and lines 13–16. -/
theorem pay14_read (v1 : FVec Ideal S64x4096 .f32) (v3 v5 v12 : FVec Ideal S64x32 .f32) (a e b : FVec Ideal S64x4096 .f32)
    (p : Fin 64) (q : Fin 4096) :
    k0_pay14 v1 v3 v5 v12 a e b (ix2 p q)
      = a (ix2 p q) + b (ix2 p q) * e (ix2 p q) + term v1 v3 v5 v12 p q 13 (by decide)
        + term v1 v3 v5 v12 p q 14 (by decide)
        + term v1 v3 v5 v12 p q 15 (by decide)
        + term v1 v3 v5 v12 p q 16 (by decide) := by
  unfold k0_pay14
  simp only [addf_apply, term_read]
  simp only [mulf_apply]

/-- The running sum `a`, the line whose bell `e` and amplitude column `b` were formed before, and lines 18–21. -/
theorem pay17_read (v1 : FVec Ideal S64x4096 .f32) (v3 v5 v12 : FVec Ideal S64x32 .f32) (a e b : FVec Ideal S64x4096 .f32)
    (p : Fin 64) (q : Fin 4096) :
    k0_pay17 v1 v3 v5 v12 a e b (ix2 p q)
      = a (ix2 p q) + b (ix2 p q) * e (ix2 p q) + term v1 v3 v5 v12 p q 18 (by decide)
        + term v1 v3 v5 v12 p q 19 (by decide)
        + term v1 v3 v5 v12 p q 20 (by decide)
        + term v1 v3 v5 v12 p q 21 (by decide) := by
  unfold k0_pay17
  simp only [addf_apply, term_read]
  simp only [mulf_apply]

/-- The running sum `a`, the line whose bell `e` and amplitude column `b` were formed before, and lines 23–26. -/
theorem pay20_read (v1 : FVec Ideal S64x4096 .f32) (v3 v5 v12 : FVec Ideal S64x32 .f32) (a e b : FVec Ideal S64x4096 .f32)
    (p : Fin 64) (q : Fin 4096) :
    k0_pay20 v1 v3 v5 v12 a e b (ix2 p q)
      = a (ix2 p q) + b (ix2 p q) * e (ix2 p q) + term v1 v3 v5 v12 p q 23 (by decide)
        + term v1 v3 v5 v12 p q 24 (by decide)
        + term v1 v3 v5 v12 p q 25 (by decide)
        + term v1 v3 v5 v12 p q 26 (by decide) := by
  unfold k0_pay20
  simp only [addf_apply, term_read]
  simp only [mulf_apply]

/-- The running sum `a`, the line whose bell `e` and amplitude column `b` were formed before, and lines 28–31. -/
theorem pay23_read (v1 : FVec Ideal S64x4096 .f32) (v3 v5 v12 : FVec Ideal S64x32 .f32) (a e b : FVec Ideal S64x4096 .f32)
    (p : Fin 64) (q : Fin 4096) :
    k0_pay23 v1 v3 v5 v12 a e b (ix2 p q)
      = a (ix2 p q) + b (ix2 p q) * e (ix2 p q) + term v1 v3 v5 v12 p q 28 (by decide)
        + term v1 v3 v5 v12 p q 29 (by decide)
        + term v1 v3 v5 v12 p q 30 (by decide)
        + term v1 v3 v5 v12 p q 31 (by decide) := by
  unfold k0_pay23
  simp only [addf_apply, term_read]
  simp only [mulf_apply]

/-- The bell of line 7. -/
theorem pay9_read (v1 : FVec Ideal S64x4096 .f32) (v5 v12 : FVec Ideal S64x32 .f32) (p : Fin 64) (q : Fin 4096) :
    k0_pay9 v1 v5 v12 (ix2 p q) = bell v1 v5 v12 p q 7 (by decide) := by
  unfold k0_pay9
  simp only [mulf_apply, exp_apply, subf_apply, col_read]
  rfl

/-- The bell of line 12. -/
theorem pay12_read (v1 : FVec Ideal S64x4096 .f32) (v5 v12 : FVec Ideal S64x32 .f32) (p : Fin 64) (q : Fin 4096) :
    k0_pay12 v1 v5 v12 (ix2 p q) = bell v1 v5 v12 p q 12 (by decide) := by
  unfold k0_pay12
  simp only [mulf_apply, exp_apply, subf_apply, col_read]
  rfl

/-- The bell of line 17. -/
theorem pay15_read (v1 : FVec Ideal S64x4096 .f32) (v5 v12 : FVec Ideal S64x32 .f32) (p : Fin 64) (q : Fin 4096) :
    k0_pay15 v1 v5 v12 (ix2 p q) = bell v1 v5 v12 p q 17 (by decide) := by
  unfold k0_pay15
  simp only [mulf_apply, exp_apply, subf_apply, col_read]
  rfl

/-- The bell of line 22. -/
theorem pay18_read (v1 : FVec Ideal S64x4096 .f32) (v5 v12 : FVec Ideal S64x32 .f32) (p : Fin 64) (q : Fin 4096) :
    k0_pay18 v1 v5 v12 (ix2 p q) = bell v1 v5 v12 p q 22 (by decide) := by
  unfold k0_pay18
  simp only [mulf_apply, exp_apply, subf_apply, col_read]
  rfl

/-- The bell of line 27. -/
theorem pay21_read (v1 : FVec Ideal S64x4096 .f32) (v5 v12 : FVec Ideal S64x32 .f32) (p : Fin 64) (q : Fin 4096) :
    k0_pay21 v1 v5 v12 (ix2 p q) = bell v1 v5 v12 p q 27 (by decide) := by
  unfold k0_pay21
  simp only [mulf_apply, exp_apply, subf_apply, col_read]
  rfl

/-- The amplitude column of line 7. -/
theorem pay10_read (v3 : FVec Ideal S64x32 .f32) (p : Fin 64) (q : Fin 4096) :
    k0_pay10 v3 (ix2 p q) = v3 (ix2 p ⟨7, by decide⟩) := by
  unfold k0_pay10
  simp only [col_read]

/-- The amplitude column of line 12. -/
theorem pay13_read (v3 : FVec Ideal S64x32 .f32) (p : Fin 64) (q : Fin 4096) :
    k0_pay13 v3 (ix2 p q) = v3 (ix2 p ⟨12, by decide⟩) := by
  unfold k0_pay13
  simp only [col_read]

/-- The amplitude column of line 17. -/
theorem pay16_read (v3 : FVec Ideal S64x32 .f32) (p : Fin 64) (q : Fin 4096) :
    k0_pay16 v3 (ix2 p q) = v3 (ix2 p ⟨17, by decide⟩) := by
  unfold k0_pay16
  simp only [col_read]

/-- The amplitude column of line 22. -/
theorem pay19_read (v3 : FVec Ideal S64x32 .f32) (p : Fin 64) (q : Fin 4096) :
    k0_pay19 v3 (ix2 p q) = v3 (ix2 p ⟨22, by decide⟩) := by
  unfold k0_pay19
  simp only [col_read]

/-- The amplitude column of line 27. -/
theorem pay22_read (v3 : FVec Ideal S64x32 .f32) (p : Fin 64) (q : Fin 4096) :
    k0_pay22 v3 (ix2 p q) = v3 (ix2 p ⟨27, by decide⟩) := by
  unfold k0_pay22
  simp only [col_read]

/-! ## The whole body at an entry -/

theorem zero_offsets : (![0, 0] : Fin 2 → Nat) = fun _ => 0 := funext fun a => by fin_cases a <;> rfl

/-- ENTRY (p, q) OF WHAT THE BODY STORES, from the four loaded blocks: the sum over the 32 lines of row `p` of
    amplitude × bell at bin `q`, the coefficients being the folded widths. -/
theorem out_read (x0 : Vec Ideal S64x4096 .f32) (x1 x2 x3 : Vec Ideal S64x32 .f32) (p : Fin 64) (q : Fin 4096) :
    out0_4 x0 x1 x2 x3 (ix2 p q) = ∑ j : Fin 32, term x0 x1 x2 (k0_pay4 x3) p q j.val j.isLt := by
  unfold out0_4
  rw [View.canon_unit_zero zero_offsets]
  simp only [View.ld_unit_zero (S := S64x4096) zero_offsets, View.ld_unit_zero (S := S64x32) zero_offsets]
  simp only [pay23_read, pay20_read, pay17_read, pay14_read, pay11_read, pay8_read, pay5_read, pay6_read, pay7_read, pay9_read, pay10_read, pay12_read, pay13_read, pay15_read, pay16_read, pay18_read, pay19_read, pay21_read, pay22_read]
  simp only [pay1_eq, pay2_eq, pay3_eq, term_eq, Ideal.ofBits_zero_f32]
  exact sum32 (fun n h => term x0 x1 x2 (k0_pay4 x3) p q n h)

end Cert.KernelIdeal.Row

end
-- ==== Proof.KernelArray.lean ====
/-
  The kernel's program, read as one function of its arguments.

  @main gathers the three [64, 4, 8, 4] parameter arrays (amplitudes, centres, widths) from the table, flattens each
  to [256, 32] — row 4·n + c is (spectrum n, channel c), column 4·l + k is (line l, component k) — and the spectra to
  [256, 4096]; the kernel runs on 4 blocks of 64 rows; the [256, 4096] result is folded back to [64, 4, 4096].
  Grid point t reads rows 64·t … 64·t + 63 of every array and writes the same rows of the result, so the blocks
  tile the result and the array the region leaves is, row by row, the sum over the row's 32 lines (`rows`).
-/
import proofs.«129935_j28733331210408_2_alg».proof.Proof.KernelRow
import Idealize.ShloMosaic.Lib.StableHlo.Run

set_option maxRecDepth 16384

noncomputable section

namespace Cert.KernelIdeal.Arr

open Cert.KernelIdeal Cert.KernelIdeal.Gen Cert.KernelIdeal.Row Idealize.ShloMosaic Idealize.ShloMosaic.TcCoe Idealize.SL.Sem
open Idealize.ShloMosaic.ValueIdx Cert.GaussMix Idealize.ShloMosaic.StableHlo
open Idealize.ShloMosaic.Pipeline (Dat)

/-- Row i₀ of the kernel's [256, 4096] result at bin i₁, from the flattened arrays: the sum over the row's 32 lines of
    amplitude × exp((coefficient × deviation) × deviation), the coefficient folded from the width. -/
def rows (X : S256x4096.Idx → EReal) (A M S : S256x32.Idx → EReal) : S256x4096.Idx → EReal :=
  fun i => ∑ j : Fin 32, lineK (X i) (A (ix2 (⟨(i 0).val, (i 0).isLt⟩ : Fin 256) j)) (M (ix2 (⟨(i 0).val, (i 0).isLt⟩ : Fin 256) j))
    (coef (S (ix2 (⟨(i 0).val, (i 0).isLt⟩ : Fin 256) j)))

/-- One parameter array as @main gathers it from the table `x1` by an index array `ix` (a negative index first
    wrapped by the table's width). Both programs gather in this way; the term is never opened. -/
def gathered (x1 : (⟨S64x384, .f32⟩ : BufTy).Contents (Elt Ideal)) (ix : (⟨S4x8x4, .i32⟩ : BufTy).Contents (Elt Ideal)) :
    (⟨S64x4x8x4, .f32⟩ : BufTy).Contents (Elt Ideal) :=
  Host.gather gather_S64x384_S4x8x4x1_S64x4x8x4_0_1_n_n_1_3_641 x1
    (broadcastInDim S4x8x4x1 ![0, 1, 2] bcast_S4x8x4_S4x8x4x1_0_1_2
      (select (cmpi .slt ix (broadcastInDim S4x8x4 ![] bcast_S_S4x8x4 (constantI S_ 32 0#32)))
        (addi ix (broadcastInDim S4x8x4 ![] bcast_S_S4x8x4 (constantI S_ 32 384#32))) ix))

/-- THE KERNEL PROGRAM'S RESULT as one function of its five arguments. -/
def result (x0 : (⟨S64x4x4096, .f32⟩ : BufTy).Contents (Elt Ideal)) (x1 : (⟨S64x384, .f32⟩ : BufTy).Contents (Elt Ideal))
    (x2 x3 x4 : (⟨S4x8x4, .i32⟩ : BufTy).Contents (Elt Ideal)) : (⟨S64x4x4096, .f32⟩ : BufTy).Contents (Elt Ideal) :=
  shapeCast S64x4x4096
    (rows (shapeCast S256x4096 x0 shapeCasts_S64x4x4096_S256x4096)
      (shapeCast S256x32 (gathered x1 x2) shapeCasts_S64x4x8x4_S256x32)
      (shapeCast S256x32 (gathered x1 x3) shapeCasts_S64x4x8x4_S256x32)
      (shapeCast S256x32 (gathered x1 x4) shapeCasts_S64x4x8x4_S256x32))
    shapeCasts_S256x4096_S64x4x4096

variable (m : (ℓ : Loc nD τ sig) → Buf (Elt Ideal) ℓ) (ρ : Dev nD → PrngReg)

/-! ## The arrays the region finds -/

theorem V_x (c : Dev nD) : (V m c main_v24 : S256x4096.Idx → EReal)
    = shapeCast S256x4096 (m ((c : Thread nD τ).loc main_arg0)) shapeCasts_S64x4x4096_S256x4096 := by
  show StableHlo.after hostOps0 (fun b => m (c, b)) (Proc.devRef .tc main_v24) = _
  after_results
  rfl

theorem V_amp (c : Dev nD) : (V m c main_v21 : S256x32.Idx → EReal)
    = shapeCast S256x32 (gathered (m ((c : Thread nD τ).loc main_arg1)) (m ((c : Thread nD τ).loc main_arg2))) shapeCasts_S64x4x8x4_S256x32 := by
  show StableHlo.after hostOps0 (fun b => m (c, b)) (Proc.devRef .tc main_v21) = _
  after_results
  rfl

theorem V_mu (c : Dev nD) : (V m c main_v22 : S256x32.Idx → EReal)
    = shapeCast S256x32 (gathered (m ((c : Thread nD τ).loc main_arg1)) (m ((c : Thread nD τ).loc main_arg3))) shapeCasts_S64x4x8x4_S256x32 := by
  show StableHlo.after hostOps0 (fun b => m (c, b)) (Proc.devRef .tc main_v22) = _
  after_results
  rfl

theorem V_sigma (c : Dev nD) : (V m c main_v23 : S256x32.Idx → EReal)
    = shapeCast S256x32 (gathered (m ((c : Thread nD τ).loc main_arg1)) (m ((c : Thread nD τ).loc main_arg4))) shapeCasts_S64x4x8x4_S256x32 := by
  show StableHlo.after hostOps0 (fun b => m (c, b)) (Proc.devRef .tc main_v23) = _
  after_results_simp <;> rfl

/-! ## The blocks -/

/-- The printed index maps, decided over the four grid points: every window's block row is the output's, every block
    column is 0, and the output's block row is at most 3. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 3 :=
  (by decide +kernel : ∀ t : Fin grid0.N, _)

/-- Every block row of the result is some grid point's. -/
theorem idx_onto : ∀ q0 : Fin 4, ∃ t : Fin cfg0.N, win0_4.index t = ![q0.val, 0] :=
  (by decide +kernel : ∀ q0 : Fin 4, ∃ t : Fin grid0.N, win0_4.index t = ![q0.val, 0])

/-- Entry (p, q) of the spectra block at point `t` is entry (r, q) of the flattened spectra, r the block's row offset plus p. -/
theorem iblk_x (c : Dev nD) (t : Fin cfg0.N) (p : Fin 64) (q : Fin 4096) (r : Fin 256)
    (hr : r.val = win0_4.index t (0 : Fin 2) * 64 + p.val) :
    iblk m c 0 t (ix2 p q) = V m c main_v24 (ix2 r q) := by
  obtain ⟨e0, e1, -⟩ := idx_facts t
  have he : ((cfg0.win 0).blk t).view.emb (ix2 p q) = ix2 r q := by
    funext a; apply Fin.ext
    match a with
    | ⟨0, _⟩ => show win0_0.index t (0 : Fin 2) * 64 + 1 * p.val = r.val; omega
    | ⟨1, _⟩ => show win0_0.index t (1 : Fin 2) * 4096 + 1 * q.val = q.val; omega
  show V m c main_v24 (((cfg0.win 0).blk t).view.emb (ix2 p q)) = V m c main_v24 (ix2 r q)
  rw [he]

theorem iblk_amp (c : Dev nD) (t : Fin cfg0.N) (p : Fin 64) (j : Fin 32) (r : Fin 256)
    (hr : r.val = win0_4.index t (0 : Fin 2) * 64 + p.val) :
    iblk m c 1 t (ix2 p j) = V m c main_v21 (ix2 r j) := by
  obtain ⟨-, -, e0, e1, -⟩ := idx_facts t
  have he : ((cfg0.win 1).blk t).view.emb (ix2 p j) = ix2 r j := by
    funext a; apply Fin.ext
    match a with
    | ⟨0, _⟩ => show win0_1.index t (0 : Fin 2) * 64 + 1 * p.val = r.val; omega
    | ⟨1, _⟩ => show win0_1.index t (1 : Fin 2) * 32 + 1 * j.val = j.val; omega
  show V m c main_v21 (((cfg0.win 1).blk t).view.emb (ix2 p j)) = V m c main_v21 (ix2 r j)
  rw [he]

theorem iblk_mu (c : Dev nD) (t : Fin cfg0.N) (p : Fin 64) (j : Fin 32) (r : Fin 256)
    (hr : r.val = win0_4.index t (0 : Fin 2) * 64 + p.val) :
    iblk m c 2 t (ix2 p j) = V m c main_v22 (ix2 r j) := by
  obtain ⟨-, -, -, -, e0, e1, -⟩ := idx_facts t
  have he : ((cfg0.win 2).blk t).view.emb (ix2 p j) = ix2 r j := by
    funext a; apply Fin.ext
    match a with
    | ⟨0, _⟩ => show win0_2.index t (0 : Fin 2) * 64 + 1 * p.val = r.val; omega
    | ⟨1, _⟩ => show win0_2.index t (1 : Fin 2) * 32 + 1 * j.val = j.val; omega
  show V m c main_v22 (((cfg0.win 2).blk t).view.emb (ix2 p j)) = V m c main_v22 (ix2 r j)
  rw [he]

theorem iblk_sigma (c : Dev nD) (t : Fin cfg0.N) (p : Fin 64) (j : Fin 32) (r : Fin 256)
    (hr : r.val = win0_4.index t (0 : Fin 2) * 64 + p.val) :
    iblk m c 3 t (ix2 p j) = V m c main_v23 (ix2 r j) := by
  obtain ⟨-, -, -, -, -, -, e0, e1, -⟩ := idx_facts t
  have he : ((cfg0.win 3).blk t).view.emb (ix2 p j) = ix2 r j := by
    funext a; apply Fin.ext
    match a with
    | ⟨0, _⟩ => show win0_3.index t (0 : Fin 2) * 64 + 1 * p.val = r.val; omega
    | ⟨1, _⟩ => show win0_3.index t (1 : Fin 2) * 32 + 1 * j.val = j.val; omega
  show V m c main_v23 (((cfg0.win 3).blk t).view.emb (ix2 p j)) = V m c main_v23 (ix2 r j)
  rw [he]

/-- WHAT POINT `t` WRITES BACK is block `t` of `rows` of the arrays the region finds. -/
theorem flushed_eq (c : Dev nD) (t : Fin cfg0.N) :
    (dats m 0 c).flushed 4 t
      = ((cfg0.win 4).blk t).view.read (Elt Ideal) (rows (V m c main_v24) (V m c main_v21) (V m c main_v22) (V m c main_v23)) := by
  show (cfg0.win 4).cut (grid0.coords t) ((dats m 0 c).after 4 t) = _
  rw [after0_4]
  refine funext fun (y : S64x4096.Idx) => ?_
  obtain ⟨p, q, rfl⟩ : ∃ (p : Fin 64) (q : Fin 4096), y = ix2 p q := ⟨y 0, y 1, eq_ix2 y⟩
  obtain ⟨-, -, -, -, -, -, -, -, e41, e40⟩ := idx_facts t
  have hlt : win0_4.index t (0 : Fin 2) * 64 + p.val < 256 := by have := p.isLt; omega
  have he : ((cfg0.win 4).blk t).view.emb (ix2 p q) = ix2 (⟨win0_4.index t (0 : Fin 2) * 64 + p.val, hlt⟩ : Fin 256) q := by
    funext a; apply Fin.ext
    match a with
    | ⟨0, _⟩ => show win0_4.index t (0 : Fin 2) * 64 + 1 * p.val = win0_4.index t (0 : Fin 2) * 64 + p.val; omega
    | ⟨1, _⟩ => show win0_4.index t (1 : Fin 2) * 4096 + 1 * q.val = q.val; omega
  show out0_4 (iblk m c 0 t) (iblk m c 1 t) (iblk m c 2 t) (iblk m c 3 t) (ix2 p q)
    = rows (V m c main_v24) (V m c main_v21) (V m c main_v22) (V m c main_v23) (((cfg0.win 4).blk t).view.emb (ix2 p q))
  rw [he]
  refine (out_read (iblk m c 0 t) (iblk m c 1 t) (iblk m c 2 t) (iblk m c 3 t) p q).trans ?_
  refine Finset.sum_congr rfl fun j _ => ?_
  show lineK (iblk m c 0 t (ix2 p q)) (iblk m c 1 t (ix2 p j)) (iblk m c 2 t (ix2 p j)) (k0_pay4 (iblk m c 3 t) (ix2 p j))
    = lineK (V m c main_v24 (ix2 ⟨win0_4.index t (0 : Fin 2) * 64 + p.val, hlt⟩ q))
        (V m c main_v21 (ix2 ⟨win0_4.index t (0 : Fin 2) * 64 + p.val, hlt⟩ j))
        (V m c main_v22 (ix2 ⟨win0_4.index t (0 : Fin 2) * 64 + p.val, hlt⟩ j))
        (coef (V m c main_v23 (ix2 ⟨win0_4.index t (0 : Fin 2) * 64 + p.val, hlt⟩ j)))
  rw [pay4_read, iblk_x m c t p q ⟨_, hlt⟩ rfl, iblk_amp m c t p j ⟨_, hlt⟩ rfl, iblk_mu m c t p j ⟨_, hlt⟩ rfl,
    iblk_sigma m c t p j ⟨_, hlt⟩ rfl]

/-- An index of the result array is in point `t`'s block iff each coordinate is in the block's range on its axis. -/
theorem mem_blk (t : Fin cfg0.N) (i : S256x4096.Idx) :
    i ∈ ((cfg0.win 4).blk t).view.set ↔ ∀ a : Fin 2, win0_4.index t a * S64x4096.size a ≤ (i a).val ∧ (i a).val < win0_4.index t a * S64x4096.size a + S64x4096.size a := by
  show i ∈ ((View.whole main_v25).slice (win0_4.rect t)).set ↔ _
  rw [View.set_slice_whole, Rect.mem_set_unit]
  exact Iff.rfl

/-- The four blocks of 64 rows tile the 256 rows: row r is in the block of point r / 64. -/
theorem cover (i : S256x4096.Idx) : ∃ t : Fin cfg0.N, (cfg0.win 4).flush t = true ∧ i ∈ ((cfg0.win 4).blk t).view.set := by
  have hi0 : (i 0).val < 256 := (i 0).isLt
  have hi1 : (i 1).val < 4096 := (i 1).isLt
  obtain ⟨t, ht⟩ := idx_onto ⟨(i 0).val / 64, by omega⟩
  have q0 : win0_4.index t (0 : Fin 2) = (i 0).val / 64 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 64 ≤ (i 0).val ∧ (i 0).val < win0_4.index t (0 : Fin 2) * 64 + 64; omega
  | ⟨1, _⟩ => show win0_4.index t (1 : Fin 2) * 4096 ≤ (i 1).val ∧ (i 1).val < win0_4.index t (1 : Fin 2) * 4096 + 4096; omega

/-- THE RESULT ARRAY after the region: `rows` of the arrays the region finds. -/
theorem final (c : Dev nD) :
    (dats m 0 c).arrAt 4 cfg0.N = rows (V m c main_v24) (V m c main_v21) (V m c main_v22) (V m c main_v23) :=
  (dats m 0 c).arrAt_eq_of_cover 4 _ (fun t _ => flushed_eq m c t) cover

/-! ## The fold back, and the run -/

/-- What @main returns: the region's array folded back to [64, 4, 4096] — `result` of the arguments. -/
theorem tail_eq (c : Dev nD) :
    (Pipeline.afterTail₀ cfgs (dats m) 0 (V0 m) [hostOps1] c main_v26 : S64x4x4096.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v26) = _
  after_results
  have hw : Pipeline.withArrays (cfgs 0).spec c (V0 m c) (fun w => (dats m 0 c).arrAt w (cfgs 0).N) (Proc.devRef .tc main_v25)
      = rows (V m c main_v24) (V m c main_v21) (V m c main_v22) (V m c main_v23) :=
    (Pipeline.withArrays_arr spec0 launch0.win.arr_inj c _ _ 4).trans (final m c)
  rw [hw, V_x, V_amp, V_mu, V_sigma]
  rfl

/-- THE KERNEL PROGRAM'S RUN, READ: every weakly fair execution terminates with the result array at `result` of the
    arguments and the arguments unchanged. -/
theorem run : θ_run defs (onTc (τ := τ) (main (F := Ideal))) ⟨m, fun _ => 0, ρ⟩ fun r => ∀ c : Dev nD,
      r.2.mem ((c.tc : Thread nD τ).loc main_v26)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨((h c).2 main_v26 (Pipeline.mem_restRefs_of main_v26 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.Arr

end
-- ==== Proof.RefRead.lean ====
/-
  The reference read at an entry.

  The reference broadcasts the spectra over the two line axes and the line parameters over the bins, forms
  every line's contribution  a · exp(((−½ · (x − μ)) · (x − μ)) · (1/σ²))  on a [64, 4, 8, 4, 4096] array, and sums
  over the two line axes (8 lines × 4 components) from zero.  Entry (n, c, d) of its result is therefore zero
  plus the double sum over (l, k) of the contribution of line (l, k) of spectrum n, channel c at bin d, the line's
  parameters read from the three gathered [64, 4, 8, 4] arrays at (n, c, l, k).
-/
import proofs.«129935_j28733331210408_2_alg».proof.Proof.Gen.ReferenceIdeal.Read
import proofs.«129935_j28733331210408_2_alg».proof.Proof.GaussLine
import Idealize.ShloMosaic.Lib.Pipeline.Value
import Idealize.ShloMosaic.Lib.ValueIdx
import Idealize.ShloMosaic.Lib.IdealHost

noncomputable section

namespace Cert.ReferenceIdeal.Lines

open Cert.ReferenceIdeal Cert.ReferenceIdeal.Gen Cert.ReferenceIdeal.Read Idealize.ShloMosaic Idealize.ShloMosaic.ValueIdx Cert.GaussMix

/-- A sum over the two line axes of a [64, 4, 8, 4, 4096] array, at entry (n, c, d) of the [64, 4, 4096] result: the
    indices that drop to (n, c, d) are exactly (n, c, l, k, d) for the 8 × 4 pairs (l, k). -/
theorem sum_drop_lines (h : S64x4x8x4x4096.ReducesTo [2, 3] S64x4x4096) (y : S64x4x8x4x4096.Idx → EReal)
    (n : Fin 64) (c : Fin 4) (d : Fin 4096) :
    ∑ i ∈ Finset.univ.filter (fun i => h.drop i = ix3 n c d), y i = ∑ p : Fin 8 × Fin 4, y (ix5 n c p.1 p.2 d) := by
  have e0 : ∀ i : S64x4x8x4x4096.Idx, (h.drop i 0 : ℕ) = i 0 := fun i => Shape.ReducesTo.drop_apply_val_of_eq h i 0 0
  have e1 : ∀ i : S64x4x8x4x4096.Idx, (h.drop i 1 : ℕ) = i 1 := fun i => Shape.ReducesTo.drop_apply_val_of_eq h i 1 1
  have e2 : ∀ i : S64x4x8x4x4096.Idx, (h.drop i 2 : ℕ) = i 4 := fun i => Shape.ReducesTo.drop_apply_val_of_eq h i 2 4
  refine Finset.sum_nbij' (fun i => ((i 2, i 3) : Fin 8 × Fin 4)) (fun p => ix5 n c p.1 p.2 d) ?_ ?_ ?_ ?_ ?_
  · intro i _; exact Finset.mem_univ _
  · intro p _
    rw [Finset.mem_filter]
    refine ⟨Finset.mem_univ _, funext fun b => Fin.ext ?_⟩
    match b with
    | ⟨0, _⟩ => exact e0 _
    | ⟨1, _⟩ => exact e1 _
    | ⟨2, _⟩ => exact e2 _
  · intro i hi
    rw [Finset.mem_filter] at hi
    have hd := hi.2
    funext a
    apply Fin.ext
    match a with
    | ⟨0, _⟩ => show n.val = (i 0).val; rw [← e0 i, hd]
    | ⟨1, _⟩ => show c.val = (i 1).val; rw [← e1 i, hd]
    | ⟨2, _⟩ => rfl
    | ⟨3, _⟩ => rfl
    | ⟨4, _⟩ => show d.val = (i 4).val; rw [← e2 i, hd]
  · intro p _; rfl
  · intro i hi
    rw [Finset.mem_filter] at hi
    have hd := hi.2
    refine congrArg y (funext fun a => Fin.ext ?_)
    match a with
    | ⟨0, _⟩ => show (i 0).val = n.val; rw [← e0 i, hd]
    | ⟨1, _⟩ => show (i 1).val = c.val; rw [← e1 i, hd]
    | ⟨2, _⟩ => rfl
    | ⟨3, _⟩ => rfl
    | ⟨4, _⟩ => show (i 4).val = d.val; rw [← e2 i, hd]

/-- The contribution of line (l, k) at (n, c, d), as the reference forms it. -/
theorem line_read (x0 : (⟨S64x4x4096, .f32⟩ : BufTy).Contents (Elt Ideal)) (x1 : (⟨S64x384, .f32⟩ : BufTy).Contents (Elt Ideal))
    (x2 x3 x4 : (⟨S4x8x4, .i32⟩ : BufTy).Contents (Elt Ideal)) (n : Fin 64) (c : Fin 4) (l : Fin 8) (k : Fin 4) (d : Fin 4096) :
    val_main_v38 (F := Ideal) x0 x1 x2 x3 x4 (ix5 n c l k d)
      = lineR (x0 (ix3 n c d)) (val_main_v6 (F := Ideal) x1 x2 (ix4 n c l k)) (val_main_v13 (F := Ideal) x1 x3 (ix4 n c l k))
          (val_main_v20 (F := Ideal) x1 x4 (ix4 n c l k)) := by
  have ea : idx_main_v29 (idx_main_v37 (ix5 n c l k d)) = ix4 n c l k := funext fun a => by
    match a with
    | ⟨0, _⟩ => rfl
    | ⟨1, _⟩ => rfl
    | ⟨2, _⟩ => rfl
    | ⟨3, _⟩ => rfl
  have es : idx_main_v33 (idx_main_v34 (ix5 n c l k d)) = ix4 n c l k := funext fun a => by
    match a with
    | ⟨0, _⟩ => rfl
    | ⟨1, _⟩ => rfl
    | ⟨2, _⟩ => rfl
    | ⟨3, _⟩ => rfl
  have em : idx_main_v22 (idx_main_v24 (ix5 n c l k d)) = ix4 n c l k := funext fun a => by
    match a with
    | ⟨0, _⟩ => rfl
    | ⟨1, _⟩ => rfl
    | ⟨2, _⟩ => rfl
    | ⟨3, _⟩ => rfl
  have ex : idx_main_v21 (idx_main_v23 (ix5 n c l k d)) = ix3 n c d := funext fun a => by
    match a with
    | ⟨0, _⟩ => rfl
    | ⟨1, _⟩ => rfl
    | ⟨2, _⟩ => rfl
  rw [val_main_v38_apply, val_main_v37_apply, val_main_v29_apply, val_main_v36_apply, val_main_v35_apply,
    val_main_v32_apply, val_main_v31_apply, val_main_v30_apply, val_main_cst_5_apply, val_main_v25_apply,
    val_main_v23_apply, val_main_v21_apply, val_main_v24_apply, val_main_v22_apply, val_main_v34_apply,
    val_main_v33_apply, val_main_v28_apply, val_main_v27_apply, val_main_cst_apply, val_main_v26_apply,
    ea, es, em, ex]
  rfl

/-- ENTRY (n, c, d) OF THE REFERENCE'S RESULT: zero plus the double sum over the lines of their contributions. -/
theorem ref_read (x0 : (⟨S64x4x4096, .f32⟩ : BufTy).Contents (Elt Ideal)) (x1 : (⟨S64x384, .f32⟩ : BufTy).Contents (Elt Ideal))
    (x2 x3 x4 : (⟨S4x8x4, .i32⟩ : BufTy).Contents (Elt Ideal)) (n : Fin 64) (c : Fin 4) (d : Fin 4096) :
    val_main_v39 (F := Ideal) x0 x1 x2 x3 x4 (ix3 n c d)
      = 0 + ∑ p : Fin 8 × Fin 4, lineR (x0 (ix3 n c d)) (val_main_v6 (F := Ideal) x1 x2 (ix4 n c p.1 p.2))
          (val_main_v13 (F := Ideal) x1 x3 (ix4 n c p.1 p.2)) (val_main_v20 (F := Ideal) x1 x4 (ix4 n c p.1 p.2)) := by
  unfold val_main_v39
  rw [hostReduceAdd_apply, val_main_cst_6_apply]
  unfold Ideal.hostReduceAdd
  rw [sum_drop_lines]
  simp only [line_read]
  rw [show FloatOps.ofBits (F := Ideal) .f32 0x00000000#32 = 0 from Ideal.ofBits_zero_f32]

end Cert.ReferenceIdeal.Lines

end
-- ==== Proof.Bridge.lean ====
/-
  The two programs compute one function.

  Entry (n, c, d) of the kernel program's result is entry (4·n + c, d) of the kernel's [256, 4096] array: the sum over
  the 32 columns j of row 4·n + c of  a · exp((b · (x − μ)) · (x − μ))  with b = −½ · (1/σ²).  Column j = 4·l + k of the
  flattened parameter arrays holds line (l, k), and row 4·n + c of the flattened spectra holds (n, c), because a
  reshape keeps the row-major position.  Regrouping each exponent (a product of extended reals may be re-associated
  and commuted freely) and splitting the sum over j into the double sum over (l, k) gives the reference's entry.
-/
import proofs.«129935_j28733331210408_2_alg».proof.Proof.KernelArray
import proofs.«129935_j28733331210408_2_alg».proof.Proof.RefRead

noncomputable section

namespace Cert.Bridge

open Idealize.ShloMosaic Idealize.ShloMosaic.ValueIdx Cert.GaussMix
open Cert.KernelIdeal.Arr (gathered rows result)
open Cert.ReferenceIdeal.Read (val_main_v6 val_main_v13 val_main_v20 val_main_v39)

/-- Both programs gather the three parameter arrays by the same operations. -/
theorem gathered_amp (x1 : (⟨Cert.KernelIdeal.S64x384, .f32⟩ : BufTy).Contents (Elt Ideal))
    (x2 : (⟨Cert.KernelIdeal.S4x8x4, .i32⟩ : BufTy).Contents (Elt Ideal)) :
    gathered x1 x2 = val_main_v6 (F := Ideal) x1 x2 := rfl
theorem gathered_mu (x1 : (⟨Cert.KernelIdeal.S64x384, .f32⟩ : BufTy).Contents (Elt Ideal))
    (x3 : (⟨Cert.KernelIdeal.S4x8x4, .i32⟩ : BufTy).Contents (Elt Ideal)) :
    gathered x1 x3 = val_main_v13 (F := Ideal) x1 x3 := rfl
theorem gathered_sigma (x1 : (⟨Cert.KernelIdeal.S64x384, .f32⟩ : BufTy).Contents (Elt Ideal))
    (x4 : (⟨Cert.KernelIdeal.S4x8x4, .i32⟩ : BufTy).Contents (Elt Ideal)) :
    gathered x1 x4 = val_main_v20 (F := Ideal) x1 x4 := rfl

/-- THE BRIDGE: the kernel program's result and the reference's are the same array, entry by entry. -/
theorem result_eq (x0 : (⟨Cert.KernelIdeal.S64x4x4096, .f32⟩ : BufTy).Contents (Elt Ideal))
    (x1 : (⟨Cert.KernelIdeal.S64x384, .f32⟩ : BufTy).Contents (Elt Ideal))
    (x2 x3 x4 : (⟨Cert.KernelIdeal.S4x8x4, .i32⟩ : BufTy).Contents (Elt Ideal)) :
    result x0 x1 x2 x3 x4 = val_main_v39 (F := Ideal) x0 x1 x2 x3 x4 := by
  funext i
  obtain ⟨n, c, d, rfl⟩ : ∃ (n : Fin 64) (c : Fin 4) (d : Fin 4096), i = ix3 n c d := ⟨i 0, i 1, i 2, eq_ix3 i⟩
  rw [Cert.ReferenceIdeal.Lines.ref_read, zero_add]
  have hr : n.val * 4 + c.val < 256 := by have := n.isLt; have := c.isLt; omega
  unfold result
  refine (shapeCast_apply _ _ (ix3 n c d) (ix2 (⟨n.val * 4 + c.val, hr⟩ : Fin 256) d) ?_).trans ?_
  · rw [Shape.rowMajor_val_two, Shape.rowMajor_val_three]
    rfl
  show ∑ j : Fin 32, lineK
      (shapeCast Cert.KernelIdeal.S256x4096 x0 _ (ix2 (⟨n.val * 4 + c.val, hr⟩ : Fin 256) d))
      (shapeCast Cert.KernelIdeal.S256x32 (gathered x1 x2) _ (ix2 (⟨n.val * 4 + c.val, hr⟩ : Fin 256) j))
      (shapeCast Cert.KernelIdeal.S256x32 (gathered x1 x3) _ (ix2 (⟨n.val * 4 + c.val, hr⟩ : Fin 256) j))
      (coef (shapeCast Cert.KernelIdeal.S256x32 (gathered x1 x4) _ (ix2 (⟨n.val * 4 + c.val, hr⟩ : Fin 256) j))) = _
  rw [sum_lines]
  refine Finset.sum_congr rfl fun p _ => ?_
  rw [lineK_coef]
  have hx : ∀ h, shapeCast Cert.KernelIdeal.S256x4096 x0 h (ix2 (⟨n.val * 4 + c.val, hr⟩ : Fin 256) d) = x0 (ix3 n c d) :=
    fun h => shapeCast_apply _ h _ _ (by
      rw [Shape.rowMajor_val_three, Shape.rowMajor_val_two]
      rfl)
  have hp : ∀ (g : Cert.KernelIdeal.S64x4x8x4.Idx → EReal) h,
      shapeCast Cert.KernelIdeal.S256x32 g h (ix2 (⟨n.val * 4 + c.val, hr⟩ : Fin 256) (finProdFinEquiv p)) = g (ix4 n c p.1 p.2) :=
    fun g h => shapeCast_apply _ h _ _ (by
      rw [Shape.rowMajor_val_four, Shape.rowMajor_val_two]
      show ((n.val * 4 + c.val) * 8 + p.1.val) * 4 + p.2.val = (n.val * 4 + c.val) * 32 + (p.2.val + 4 * p.1.val)
      omega)
  rw [hx, hp, hp, hp, gathered_amp, gathered_mu, gathered_sigma]

end Cert.Bridge

end
-- ==== Proof.lean ====
/-
  A superposition of Gaussian spectral lines: the kernel and its reference are one function on the extended reals.

  Both programs gather, for each of 64 spectra and 4 channels, the amplitudes a, centres μ and widths σ of 8 lines of
  4 components from a table of network outputs, and return, at each of 4096 wavelength bins x,
      Σ over the 32 (line, component) pairs of  a · exp(−½ · (x − μ)² / σ²).
  The reference forms  a · exp(((−½ · (x − μ)) · (x − μ)) · (1/σ²))  on a [64, 4, 8, 4, 4096] array and sums over the two
  line axes from zero.  The kernel flattens (spectrum, channel) to 256 rows and (line, component) to 32 columns, folds
  b = −½ · (1/σ²) once, and on 4 blocks of 64 rows adds  a · exp((b · (x − μ)) · (x − μ))  for the 32 columns in turn to an
  accumulator that starts at zero.  The two exponents are the same product regrouped, and the two sums add the same 32
  numbers; products and sums of extended reals are commutative and associative whatever the operands, so the results
  agree entry by entry and finiteness of the inputs is never used (Proof/GaussLine.lean: the arithmetic;
  Proof/KernelRow.lean: the kernel body at an entry; Proof/KernelArray.lean: its blocks, the array they tile and the
  program's run; Proof/RefRead.lean: the reference at an entry; Proof/Bridge.lean: the two are equal).  The idealization
  rewrote nothing, so `preserves` is trivial; the three frames are the programs' runs.
-/
import proofs.«129935_j28733331210408_2_alg».proof.Defs
import proofs.«129935_j28733331210408_2_alg».proof.Proof.Gen.Kernel
import proofs.«129935_j28733331210408_2_alg».proof.Proof.Gen.Kernel.Skeleton
import proofs.«129935_j28733331210408_2_alg».proof.Proof.Gen.Kernel.Launch
import proofs.«129935_j28733331210408_2_alg».proof.Proof.Gen.Kernel.Points
import proofs.«129935_j28733331210408_2_alg».proof.Proof.Gen.Kernel.Frame
import proofs.«129935_j28733331210408_2_alg».proof.Proof.Gen.KernelIdeal
import proofs.«129935_j28733331210408_2_alg».proof.Proof.Gen.KernelIdeal.Skeleton
import proofs.«129935_j28733331210408_2_alg».proof.Proof.Gen.KernelIdeal.Launch
import proofs.«129935_j28733331210408_2_alg».proof.Proof.Gen.KernelIdeal.Points
import proofs.«129935_j28733331210408_2_alg».proof.Proof.Gen.KernelIdeal.Frame
import proofs.«129935_j28733331210408_2_alg».proof.Proof.Gen.ReferenceIdeal
import proofs.«129935_j28733331210408_2_alg».proof.Proof.Gen.Pre_finite_inputs
import proofs.«129935_j28733331210408_2_alg».proof.Proof.Gen.ReferenceIdeal.Run
import proofs.«129935_j28733331210408_2_alg».proof.Proof.Gen.ReferenceIdeal.Read
import proofs.«129935_j28733331210408_2_alg».proof.Proof.Bridge
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel program ends at `result` of the arguments and the reference at
    its composed term of the same arguments: one array (`Cert.Bridge.result_eq`). -/
theorem algebraic : Cert.algebraic_KernelIdeal_ReferenceIdeal := by
  intro m ρ m' ρ' _ hagree
  refine ⟨fun c => Cert.KernelIdeal.Arr.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Arr.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v39_eq, (hagree c).1, (hagree c).2.1, (hagree c).2.2.1,
    (hagree c).2.2.2.1, (hagree c).2.2.2.2]
  exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
